-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1024 : Shape := ⟨2, ![131072, 1024]⟩
abbrev S131072x21 : Shape := ⟨2, ![131072, 21]⟩
abbrev S21x1024 : Shape := ⟨2, ![21, 1024]⟩
abbrev S21 : Shape := ⟨1, ![21]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel
  bcast_S_S131072x21 : S_.BroadcastsInDim S131072x21 (![] : Fin 0 → Fin S131072x21.rank)
  reducesTo_S131072x21_S_d0_1 : S131072x21.ReducesTo [0, 1] S_
  bcast_S_S21x1024 : S_.BroadcastsInDim S21x1024 (![] : Fin 0 → Fin S21x1024.rank)
  reducesTo_S21x1024_S_d0_1 : S21x1024.ReducesTo [0, 1] S_
  bcast_S_S21 : S_.BroadcastsInDim S21 (![] : Fin 0 → Fin S21.rank)
  reducesTo_S21_S_d0 : S21.ReducesTo [0] S_

variable [Facts]

def fn_part1 {F : FTy → Type} [FloatOps F] (main_v13 : IVec S_ 1) (main_v16 : IVec S21 1) : IVec S_ 1 :=
  let main_c_5 : IVec S_ 1 := constantI S_ 1 1#1
  let main_v17 : IVec S_ 1 := (fun x v => Host.reduce IntOp.andi x v reducesTo_S21_S_d0 h_S_) main_v16 main_c_5
  let main_v18 : IVec S_ 1 := andi main_v13 main_v17
  main_v18

def fn {F : FTy → Type} [FloatOps F] (main_arg0 : FVec F S131072x1024 .f32) (main_arg1 : FVec F S131072x21 .f32) (main_arg2 : FVec F S21x1024 .f32) (main_arg3 : FVec F S21 .f32) : IVec S_ 1 :=
  let main_v0 : FVec F S131072x1024 .f32 := Host.absf main_arg0
  let main_cst : FVec F S_ .f32 := constant S_ .f32 0x7F800000#32
  let main_v1 : FVec F S131072x1024 .f32 := broadcastInDim S131072x1024 ![] bcast_S_S131072x1024 main_cst
  let main_v2 : IVec S131072x1024 1 := cmpf .olt main_v0 main_v1
  let main_c : IVec S_ 1 := constantI S_ 1 1#1
  let main_v3 : IVec S_ 1 := (fun x v => Host.reduce IntOp.andi x v reducesTo_S131072x1024_S_d0_1 h_S_) main_v2 main_c
  let main_v4 : FVec F S131072x21 .f32 := Host.absf main_arg1
  let main_cst_0 : FVec F S_ .f32 := constant S_ .f32 0x7F800000#32
  let main_v5 : FVec F S131072x21 .f32 := broadcastInDim S131072x21 ![] bcast_S_S131072x21 main_cst_0
  let main_v6 : IVec S131072x21 1 := cmpf .olt main_v4 main_v5
  let main_c_1 : IVec S_ 1 := constantI S_ 1 1#1
  let main_v7 : IVec S_ 1 := (fun x v => Host.reduce IntOp.andi x v reducesTo_S131072x21_S_d0_1 h_S_) main_v6 main_c_1
  let main_v8 : IVec S_ 1 := andi main_v3 main_v7
  let main_v9 : FVec F S21x1024 .f32 := Host.absf main_arg2
  let main_cst_2 : FVec F S_ .f32 := constant S_ .f32 0x7F800000#32
  let main_v10 : FVec F S21x1024 .f32 := broadcastInDim S21x1024 ![] bcast_S_S21x1024 main_cst_2
  let main_v11 : IVec S21x1024 1 := cmpf .olt main_v9 main_v10
  let main_c_3 : IVec S_ 1 := constantI S_ 1 1#1
  let main_v12 : IVec S_ 1 := (fun x v => Host.reduce IntOp.andi x v reducesTo_S21x1024_S_d0_1 h_S_) main_v11 main_c_3
  let main_v13 : IVec S_ 1 := andi main_v8 main_v12
  let main_v14 : FVec F S21 .f32 := Host.absf main_arg3
  let main_cst_4 : FVec F S_ .f32 := constant S_ .f32 0x7F800000#32
  let main_v15 : FVec F S21 .f32 := broadcastInDim S21 ![] bcast_S_S21 main_cst_4
  let main_v16 : IVec S21 1 := cmpf .olt main_v14 main_v15
  fn_part1 (F := F) main_v13 main_v16
-- ==== Kernel.lean ====
abbrev S131072x1024 : Shape := ⟨2, ![131072, 1024]⟩
abbrev S131072x21 : Shape := ⟨2, ![131072, 21]⟩
abbrev S21x1024 : Shape := ⟨2, ![21, 1024]⟩
abbrev S21 : Shape := ⟨1, ![21]⟩
abbrev S1024x21 : Shape := ⟨2, ![1024, 21]⟩
abbrev S1x21 : Shape := ⟨2, ![1, 21]⟩
abbrev S131072 : Shape := ⟨1, ![131072]⟩
abbrev S2048x1024 : Shape := ⟨2, ![2048, 1024]⟩
abbrev S2048x21 : Shape := ⟨2, ![2048, 21]⟩
abbrev S2048 : Shape := ⟨1, ![2048]⟩

abbrev nBuf : Space → Nat
  | .hbm => 8
  | .vmem => 10
  | .smem => 0
  | _ => 0

abbrev bufTy : (tb : Table) → Fin (tcTables nBuf tb) → BufTy
  | .hbm, ⟨0, _⟩ => ⟨S131072x1024, .f32⟩
  | .hbm, ⟨1, _⟩ => ⟨S131072x21, .f32⟩
  | .hbm, ⟨2, _⟩ => ⟨S21x1024, .f32⟩
  | .hbm, ⟨3, _⟩ => ⟨S21, .f32⟩
  | .hbm, ⟨4, _⟩ => ⟨S1024x21, .f32⟩
  | .hbm, ⟨5, _⟩ => ⟨S1x21, .f32⟩
  | .hbm, ⟨6, _⟩ => ⟨S131072, .f32⟩
  | .hbm, ⟨7, _⟩ => ⟨S131072x21, .f32⟩
  | .local _ .vmem, ⟨0, _⟩ => ⟨S2048x1024, .f32⟩
  | .local _ .vmem, ⟨1, _⟩ => ⟨S2048x1024, .f32⟩
  | .local _ .vmem, ⟨2, _⟩ => ⟨S1024x21, .f32⟩
  | .local _ .vmem, ⟨3, _⟩ => ⟨S1x21, .f32⟩
  | .local _ .vmem, ⟨4, _⟩ => ⟨S2048x21, .f32⟩
  | .local _ .vmem, ⟨5, _⟩ => ⟨S2048x21, .f32⟩
  | .local _ .vmem, ⟨6, _⟩ => ⟨S2048, .f32⟩
  | .local _ .vmem, ⟨7, _⟩ => ⟨S2048, .f32⟩
  | .local _ .vmem, ⟨8, _⟩ => ⟨S2048x21, .f32⟩
  | .local _ .vmem, ⟨9, _⟩ => ⟨S2048x21, .f32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x21 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x21 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x21 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x21 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S21x1024_S1024x21_1_0 : S21x1024.Transposes [1, 0] S1024x21
  shapeCasts_S21_S1x21 : S21.ShapeCasts S1x21
  inb_S2048x1024_S2048x1024_0_0 : ∀ a, (![0, 0] : Fin 2 → Nat) a + S2048x1024.size a ≤ S2048x1024.size a
  h_S2048x1024 : 0 < S2048x1024.numel
  inb_S1024x21_S1024x21_0_0 : ∀ a, (![0, 0] : Fin 2 → Nat) a + S1024x21.size a ≤ S1024x21.size a
  h_S1024x21 : 0 < S1024x21.numel
  shapeCasts_S1024x21_S1024x21 : S1024x21.ShapeCasts S1024x21
  inb_S1x21_S1x21_0_0 : ∀ a, (![0, 0] : Fin 2 → Nat) a + S1x21.size a ≤ S1x21.size a
  h_S1x21 : 0 < S1x21.numel
  shapeCasts_S1x21_S1x21 : S1x21.ShapeCasts S1x21
  broadcasts_S1x21_S2048x21 : S1x21.Broadcasts S2048x21
  inb_S2048x21_S2048x21_0_0 : ∀ a, (![0, 0] : Fin 2 → Nat) a + S2048x21.size a ≤ S2048x21.size a
  h_S2048x21 : 0 < S2048x21.numel
  reduces_S2048x21_S2048 : S2048x21.Reduces [1] S2048
  inb_S2048_S2048_0 : ∀ a, (![0] : Fin 1 → Nat) a + S2048.size a ≤ S2048.size a
  h_S2048 : 0 < S2048.numel
  dot_S2048x1024_S1024x21_S2048x21_1_0_0_1_n_n_wf : DotDims.WF S2048x1024 S1024x21 S2048x21 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S131072x1024.size a
  hwx0_0 : ∀ i : grid0.Coords, EltTy.bits .f32 = 32 ∨ (Rect.block (s := S131072x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x21.size a ≤ S1024x21.size a
  hwx0_1 : ∀ i : grid0.Coords, EltTy.bits .f32 = 32 ∨ (Rect.block (s := S1024x21) S1024x21.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x21.size a ≤ S1x21.size a
  hwx0_2 : ∀ i : grid0.Coords, EltTy.bits .f32 = 32 ∨ (Rect.block (s := S1x21) S1x21.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x21.size a ≤ S131072x21.size a
  hwx0_3 : ∀ i : grid0.Coords, EltTy.bits .f32 = 32 ∨ (Rect.block (s := S131072x21) S2048x21.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S131072.size a
  hwx0_4 : ∀ i : grid0.Coords, EltTy.bits .f32 = 32 ∨ (Rect.block (s := S131072) S2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x21.size a ≤ S131072x21.size a
  hwx0_5 : ∀ i : grid0.Coords, EltTy.bits .f32 = 32 ∨ (Rect.block (s := S131072x21) S2048x21.size (cc0_transform_5 i) (hinb0_5 i)).WholeWords (EltTy.packing .f32)

variable [Facts₀]

def dot_S2048x1024_S1024x21_S2048x21_1_0_0_1_n_n : DotDims S2048x1024 S1024x21 S2048x21 where
  lhsContracting := [1]
  rhsContracting := [0]
  lhsNonContracting := [0]
  rhsNonContracting := [1]
  lhsBatch := []
  rhsBatch := []
  wf := dot_S2048x1024_S1024x21_S2048x21_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x21.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x21.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S2048x21.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S2048x21.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x1024 : Shape := ⟨2, ![131072, 1024]⟩
abbrev S131072x21 : Shape := ⟨2, ![131072, 21]⟩
abbrev S21x1024 : Shape := ⟨2, ![21, 1024]⟩
abbrev S21 : Shape := ⟨1, ![21]⟩
abbrev S1x21 : Shape := ⟨2, ![1, 21]⟩
abbrev S_ : Shape := ⟨0, ![]⟩
abbrev S131072 : Shape := ⟨1, ![131072]⟩

abbrev nBuf : Space → Nat
  | .hbm => 11
  | .vmem => 0
  | .smem => 0
  | _ => 0

abbrev bufTy : (tb : Table) → Fin (tcTables nBuf tb) → BufTy
  | .hbm, ⟨0, _⟩ => ⟨S131072x1024, .f32⟩
  | .hbm, ⟨1, _⟩ => ⟨S131072x21, .f32⟩
  | .hbm, ⟨2, _⟩ => ⟨S21x1024, .f32⟩
  | .hbm, ⟨3, _⟩ => ⟨S21, .f32⟩
  | .hbm, ⟨4, _⟩ => ⟨S131072x21, .f32⟩
  | .hbm, ⟨5, _⟩ => ⟨S1x21, .f32⟩
  | .hbm, ⟨6, _⟩ => ⟨S131072x21, .f32⟩
  | .hbm, ⟨7, _⟩ => ⟨S131072x21, .f32⟩
  | .hbm, ⟨8, _⟩ => ⟨S131072x21, .f32⟩
  | .hbm, ⟨9, _⟩ => ⟨S_, .f32⟩
  | .hbm, ⟨10, _⟩ => ⟨S131072, .f32⟩
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S21_S1x21_1 : S21.BroadcastsInDim S1x21 (![1] : Fin 1 → Fin S1x21.rank)
  bcast_S1x21_S131072x21_0_1 : S1x21.BroadcastsInDim S131072x21 (![0, 1] : Fin 2 → Fin S131072x21.rank)
  reducesTo_S131072x21_S131072_d1 : S131072x21.ReducesTo [1] S131072
  h_S_ : 0 < S_.numel
  dot_S131072x1024_S21x1024_S131072x21_1_1_0_0_n_n_wf : DotDims.WF S131072x1024 S21x1024 S131072x21 [1] [1] [0] [0] [] []

variable [Facts₀]

def dot_S131072x1024_S21x1024_S131072x21_1_1_0_0_n_n : DotDims S131072x1024 S21x1024 S131072x21 where
  lhsContracting := [1]
  rhsContracting := [1]
  lhsNonContracting := [0]
  rhsNonContracting := [0]
  lhsBatch := []
  rhsBatch := []
  wf := dot_S131072x1024_S21x1024_S131072x21_1_1_0_0_n_n_wf

class Facts : Prop extends Facts₀ where

variable [Facts]
-- ==== Proof.HeadScores.lean ====
/-
  The function both programs compute, over the extended reals.

  Row `r` of `x` (1024 features) is scored by each of 21 linear heads: head `h` has the weight vector
  `W[h, ·]` and the bias `b[h]`, and its score of the row is the inner product plus the bias,
      head r h = (∑ k, x[r, k] · W[h, k]) + b[h].
  The first result is the array of all scores, [131072, 21]; the second is each row's scores weighted by the row's
  confidences `v[r, ·]` and added over the heads,
      total r = ∑ h, head r h · v[r, h].
  Nothing here needs the inputs to be finite: the two programs form the same products and the same sums, and
  differ only in how the arrays are laid out and cut into blocks.
-/
import Idealize.ShloMosaic.PureOps.Ideal
import Idealize.ShloMosaic.Lib.ValueIdx

noncomputable section

open scoped BigOperators

namespace Cert.HeadScores

open Idealize.ShloMosaic Idealize.ShloMosaic.ValueIdx

/-- Head `h`'s score of row `r`: the row's inner product with the head's weights, plus the head's bias. -/
def head (x : (⟨2, ![131072, 1024]⟩ : Shape).Idx → EReal) (W : (⟨2, ![21, 1024]⟩ : Shape).Idx → EReal)
    (b : (⟨1, ![21]⟩ : Shape).Idx → EReal) (r : Fin 131072) (h : Fin 21) : EReal :=
  (∑ k : Fin 1024, x (ix2 r k) * W (ix2 h k)) + b (ix1 h)

/-- Every head's score of every row, as one array. -/
def heads (x : (⟨2, ![131072, 1024]⟩ : Shape).Idx → EReal) (W : (⟨2, ![21, 1024]⟩ : Shape).Idx → EReal)
    (b : (⟨1, ![21]⟩ : Shape).Idx → EReal) : (⟨2, ![131072, 21]⟩ : Shape).Idx → EReal :=
  fun i => head x W b (i 0) (i 1)

/-- Row `r`'s scores, each weighted by the row's confidence in that head, added over the 21 heads. -/
def total (x : (⟨2, ![131072, 1024]⟩ : Shape).Idx → EReal) (v : (⟨2, ![131072, 21]⟩ : Shape).Idx → EReal)
    (W : (⟨2, ![21, 1024]⟩ : Shape).Idx → EReal) (b : (⟨1, ![21]⟩ : Shape).Idx → EReal) (r : Fin 131072) : EReal :=
  ∑ h : Fin 21, head x W b r h * v (ix2 r h)

/-- The weighted totals of all rows, as one array. -/
def totals (x : (⟨2, ![131072, 1024]⟩ : Shape).Idx → EReal) (v : (⟨2, ![131072, 21]⟩ : Shape).Idx → EReal)
    (W : (⟨2, ![21, 1024]⟩ : Shape).Idx → EReal) (b : (⟨1, ![21]⟩ : Shape).Idx → EReal) :
    (⟨1, ![131072]⟩ : Shape).Idx → EReal :=
  fun i => total x v W b (i 0)

end Cert.HeadScores

end
-- ==== Proof.ReferenceHeads.lean ====
/-
  The reference's two results are the specification's two arrays.

  The reference contracts `x` with `W` over the feature axis (both operands carry it as their second axis), adds
  the bias broadcast along the rows, and then multiplies by the confidences and adds over the head axis from a zero
  initial value. Read at an index, each operation is one line; the only thing to check is that the operand indices
  the contraction, the two broadcasts and the sum name are the ones the specification writes with coordinates.
-/
import proofs.«172958_j6373731467824_2_alg».proof.Proof.Gen.ReferenceIdeal.Read
import proofs.«172958_j6373731467824_2_alg».proof.Proof.HeadScores

noncomputable section

open scoped BigOperators

namespace Cert.ReferenceIdeal.Heads

open Cert.ReferenceIdeal Cert.ReferenceIdeal.Read Idealize.ShloMosaic Idealize.ShloMosaic.ValueIdx

/-- The contraction's left operand index at result `(r, h)` and feature `k` is `(r, k)`. -/
theorem lidx_eq (i : S131072x21.Idx) (k : Fin 1024) : lidx_main_v0 i k = ix2 (i 0) k :=
  funext fun a => Fin.ext (by match a with | ⟨0, _⟩ => rfl | ⟨1, _⟩ => rfl)

/-- Its right operand index is `(h, k)`: the weights are contracted along their own second axis. -/
theorem ridx_eq (i : S131072x21.Idx) (k : Fin 1024) : ridx_main_v0 i k = ix2 (i 1) k :=
  funext fun a => Fin.ext (by match a with | ⟨0, _⟩ => rfl | ⟨1, _⟩ => rfl)

/-- The bias, broadcast first to one row and then along all rows, is read at `(r, h)` at `h`. -/
theorem bidx_eq (i : S131072x21.Idx) : idx_main_v1 (idx_main_v2 i) = ix1 (i 1) :=
  funext fun a => Fin.ext (by match a with | ⟨0, _⟩ => rfl)

/-- The head sum's operand index at row `r` and head `h` is `(r, h)`. -/
theorem sidx_eq (i : S131072.Idx) (h : Fin 21) : idx_main_v5 i h = ix2 (i 0) h :=
  funext fun a => Fin.ext (by match a with | ⟨0, _⟩ => rfl | ⟨1, _⟩ => rfl)

/-- The reference's score array is `heads`. -/
theorem scores_eq (x0 : (⟨S131072x1024, .f32⟩ : BufTy).Contents (Elt Ideal)) (x2 : (⟨S21x1024, .f32⟩ : BufTy).Contents (Elt Ideal))
    (x3 : (⟨S21, .f32⟩ : BufTy).Contents (Elt Ideal)) :
    val_main_v3 (F := Ideal) x0 x2 x3 = Cert.HeadScores.heads x0 x2 x3 := by
  funext i
  rw [val_main_v3_apply, val_main_v0_apply, val_main_v2_apply, val_main_v1_apply]
  simp only [lidx_eq, ridx_eq, bidx_eq]
  rfl

/-- The reference's weighted totals are `totals`: the sum starts from the zero word, which is the real zero. -/
theorem totals_eq (x0 : (⟨S131072x1024, .f32⟩ : BufTy).Contents (Elt Ideal)) (x1 : (⟨S131072x21, .f32⟩ : BufTy).Contents (Elt Ideal))
    (x2 : (⟨S21x1024, .f32⟩ : BufTy).Contents (Elt Ideal)) (x3 : (⟨S21, .f32⟩ : BufTy).Contents (Elt Ideal)) :
    val_main_v5 (F := Ideal) x0 x1 x2 x3 = Cert.HeadScores.totals x0 x1 x2 x3 := by
  funext i
  rw [val_main_v5_apply, val_main_cst_apply]
  show Ideal.ofBits .f32 0x00000000#32 + _ = _
  rw [Ideal.ofBits_zero_f32, zero_add]
  unfold Cert.HeadScores.totals Cert.HeadScores.total
  refine Finset.sum_congr rfl fun h _ => ?_
  rw [val_main_v4_apply, sidx_eq, scores_eq]
  rfl

end Cert.ReferenceIdeal.Heads

end
-- ==== Proof.BlockScores.lean ====
/-
  What the kernel's body computes from one grid point's blocks, entry by entry.

  At a grid point the body holds 2048 rows of `x` (a [2048, 1024] block), the whole transposed weight matrix
  [1024, 21], the bias as one row [1, 21], and the same 2048 rows of the confidences [2048, 21]. It multiplies the
  row block with the transposed weights into a zero accumulator, adds the bias row to every row, stores that as the
  score block, then multiplies by the confidence block and adds along the head axis. Read at an entry:
      scores (p, q) = (∑ k, xblk[p, k] · wt[k, q]) + brow[0, q],     totals p = ∑ q, scores (p, q) · vblk[p, q].
  The matrix product at the ideal values is the plain sum over the one contracted axis; the row sum starts from the
  zero word, which is the additive neutral, so it is the plain sum as well.
-/
import proofs.«172958_j6373731467824_2_alg».proof.Proof.Gen.KernelIdeal.Skeleton
import proofs.«172958_j6373731467824_2_alg».proof.Proof.HeadScores
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockScores

open Cert.KernelIdeal Cert.KernelIdeal.Gen Idealize.ShloMosaic Idealize.ShloMosaic.ValueIdx

/-- The product's left operand index keeps the result's row … -/
theorem lhs_row (i : S2048x21.Idx) (c : dot_S2048x1024_S1024x21_S2048x21_1_0_0_1_n_n.contr.Idx) :
    (dot_S2048x1024_S1024x21_S2048x21_1_0_0_1_n_n.lhsIdx i c 0).val = (i 0).val := by
  unfold DotDims.lhsIdx
  rw [dif_neg (show ¬(0 : Fin S2048x1024.rank) ∈ dot_S2048x1024_S1024x21_S2048x21_1_0_0_1_n_n.lhsBatch by decide),
    dif_pos (show (0 : Fin S2048x1024.rank) ∈ dot_S2048x1024_S1024x21_S2048x21_1_0_0_1_n_n.lhsNonContracting by decide)]
  rfl
/-- … and runs over the features on its second axis. -/
theorem lhs_feat (i : S2048x21.Idx) (c : dot_S2048x1024_S1024x21_S2048x21_1_0_0_1_n_n.contr.Idx) :
    (dot_S2048x1024_S1024x21_S2048x21_1_0_0_1_n_n.lhsIdx i c 1).val = (c ⟨0, by decide⟩).val :=
  dot_S2048x1024_S1024x21_S2048x21_1_0_0_1_n_n.lhsIdx_val_of_single rfl i c
/-- The right operand index runs over the features on its FIRST axis (the weights arrive transposed) … -/
theorem rhs_feat (i : S2048x21.Idx) (c : dot_S2048x1024_S1024x21_S2048x21_1_0_0_1_n_n.contr.Idx) :
    (dot_S2048x1024_S1024x21_S2048x21_1_0_0_1_n_n.rhsIdx i c 0).val = (c ⟨0, by decide⟩).val :=
  dot_S2048x1024_S1024x21_S2048x21_1_0_0_1_n_n.rhsIdx_val_of_single rfl i c
/-- … and keeps the result's column, the head. -/
theorem rhs_col (i : S2048x21.Idx) (c : dot_S2048x1024_S1024x21_S2048x21_1_0_0_1_n_n.contr.Idx) :
    (dot_S2048x1024_S1024x21_S2048x21_1_0_0_1_n_n.rhsIdx i c 1).val = (i 1).val := by
  unfold DotDims.rhsIdx
  rw [dif_neg (show ¬(1 : Fin S1024x21.rank) ∈ dot_S2048x1024_S1024x21_S2048x21_1_0_0_1_n_n.rhsBatch by decide),
    dif_pos (show (1 : Fin S1024x21.rank) ∈ dot_S2048x1024_S1024x21_S2048x21_1_0_0_1_n_n.rhsNonContracting by decide)]
  rfl

/-- At result `(p, q)` and feature `k` the left operand is read at `(p, k)` … -/
theorem lhs_at (p : Fin 2048) (q : Fin 21) (k : Fin 1024) :
    dot_S2048x1024_S1024x21_S2048x21_1_0_0_1_n_n.lhsIdx (ix2 p q)
      ((contrEquiv1 dot_S2048x1024_S1024x21_S2048x21_1_0_0_1_n_n 1024 rfl rfl).symm k) = ix2 p k := by
  have hk := contrEquiv1_symm_val dot_S2048x1024_S1024x21_S2048x21_1_0_0_1_n_n 1024 rfl rfl k
  exact funext fun a => Fin.ext (by
    match a with
    | ⟨0, _⟩ => exact lhs_row _ _
    | ⟨1, _⟩ => exact (lhs_feat _ _).trans hk)

/-- … and the right operand at `(k, q)`. -/
theorem rhs_at (p : Fin 2048) (q : Fin 21) (k : Fin 1024) :
    dot_S2048x1024_S1024x21_S2048x21_1_0_0_1_n_n.rhsIdx (ix2 p q)
      ((contrEquiv1 dot_S2048x1024_S1024x21_S2048x21_1_0_0_1_n_n 1024 rfl rfl).symm k) = ix2 k q := by
  have hk := contrEquiv1_symm_val dot_S2048x1024_S1024x21_S2048x21_1_0_0_1_n_n 1024 rfl rfl k
  exact funext fun a => Fin.ext (by
    match a with
    | ⟨0, _⟩ => exact (rhs_feat _ _).trans hk
    | ⟨1, _⟩ => exact rhs_col _ _)

/-- The block product into the zero accumulator, at `(p, q)`: the sum over the 1024 features. -/
theorem product_at (a : FVec Ideal S2048x1024 .f32) (w : FVec Ideal S1024x21 .f32) (p : Fin 2048) (q : Fin 21) :
    matmul dot_S2048x1024_S1024x21_S2048x21_1_0_0_1_n_n none a w (constant (F := Ideal) S2048x21 .f32 0x00000000#32) (ix2 p q)
      = ∑ k : Fin 1024, a (ix2 p k) * w (ix2 k q) := by
  simp only [matmul]
  rw [Ideal.matmul_constant_zero_apply,
    ← Equiv.sum_comp (contrEquiv1 dot_S2048x1024_S1024x21_S2048x21_1_0_0_1_n_n 1024 rfl rfl).symm]
  refine Finset.sum_congr rfl fun k _ => ?_
  rw [lhs_at, rhs_at]

/-- The sum along the head axis from the zero word, at row `p`: the plain sum over the 21 heads. -/
theorem headsum_at (s : FVec Ideal S2048x21 .f32) (p : Fin 2048) :
    multiReduction .add [1] S2048 s 0x00000000#32 reduces_S2048x21_S2048 (.inl rfl) rfl (ix1 p)
      = ∑ q : Fin 21, s (ix2 p q) := by
  refine (Ideal.multiReduction_add_single s 0x00000000#32 reduces_S2048x21_S2048 (.inl rfl) rfl (ix1 p)).trans ?_
  refine Finset.sum_congr rfl fun q _ => congrArg s (funext fun a => Fin.ext ?_)
  match a with
  | ⟨0, _⟩ => rfl
  | ⟨1, _⟩ => rfl

/-- The score block at `(p, q)`: row `p` of the `x` block against column `q` of the transposed weights, plus the
    bias row at `q`. -/
theorem scores_at (x0 : Vec Ideal S2048x1024 .f32) (x1 : Vec Ideal S1024x21 .f32) (x2 : Vec Ideal S1x21 .f32)
    (p : Fin 2048) (q : Fin 21) :
    k0_pay1 (F := Ideal) x0 x1 x2 (ix2 p q) = (∑ k : Fin 1024, x0 (ix2 p k) * x1 (ix2 k q)) + x2 (ix2 (0 : Fin 1) q) := by
  unfold k0_pay1
  refine (addf_apply _ _ (ix2 p q)).trans ?_
  refine congrArg₂ (· + ·) ?_ ?_
  · refine Eq.trans ?_ (product_at x0 x1 p q)
    exact congrArg (fun w => matmul dot_S2048x1024_S1024x21_S2048x21_1_0_0_1_n_n none x0 w
      (constant (F := Ideal) S2048x21 .f32 0x00000000#32) (ix2 p q)) (shapeCast_self x1 shapeCasts_S1024x21_S1024x21)
  · refine Eq.trans ?_ (broadcastTo_1b_ab_apply x2 broadcasts_S1x21_S2048x21 p q)
    exact congrArg (fun w => broadcastTo S2048x21 w broadcasts_S1x21_S2048x21 (ix2 p q)) (shapeCast_self x2 shapeCasts_S1x21_S1x21)

/-- The totals block at row `p`: the row's scores times its confidences, added over the heads. -/
theorem totals_at (x0 : Vec Ideal S2048x1024 .f32) (x1 : Vec Ideal S1024x21 .f32) (x2 : Vec Ideal S1x21 .f32)
    (x3 : Vec Ideal S2048x21 .f32) (p : Fin 2048) :
    k0_pay2 (F := Ideal) x0 x1 x2 x3 (ix1 p) = ∑ q : Fin 21, k0_pay1 (F := Ideal) x0 x1 x2 (ix2 p q) * x3 (ix2 p q) := by
  unfold k0_pay2
  exact headsum_at (mulf (k0_pay1 (F := Ideal) x0 x1 x2) x3) p

/-- Row `p` of the `n`-th block of 2048 rows is row `2048 n + p` of the whole array (64 blocks in all). -/
def row (n : ℕ) (hn : n < 64) (p : Fin 2048) : Fin 131072 := ⟨2048 * n + p.val, by have := p.isLt; omega⟩

/-- THE SCORE BLOCK IS A BLOCK OF THE SCORE ARRAY. If the body's first operand holds rows `2048 n …` of `X`, its second
    the weights `W` transposed and its third the bias `B` as a row, then what it stores as scores is, at `(p, q)`,
    head `q`'s score of row `2048 n + p`. -/
theorem scores_block (X : (⟨2, ![131072, 1024]⟩ : Shape).Idx → EReal) (W : (⟨2, ![21, 1024]⟩ : Shape).Idx → EReal)
    (B : (⟨1, ![21]⟩ : Shape).Idx → EReal)
    (x0 : Vec Ideal S2048x1024 .f32) (x1 : Vec Ideal S1024x21 .f32) (x2 : Vec Ideal S1x21 .f32) (n : ℕ) (hn : n < 64)
    (h0 : ∀ (p : Fin 2048) (k : Fin 1024), x0 (ix2 p k) = X (ix2 (row n hn p) k))
    (h1 : ∀ (k : Fin 1024) (q : Fin 21), x1 (ix2 k q) = W (ix2 q k))
    (h2 : ∀ q : Fin 21, x2 (ix2 (0 : Fin 1) q) = B (ix1 q)) :
    k0_pay1 (F := Ideal) x0 x1 x2 = fun j : S2048x21.Idx => Cert.HeadScores.head X W B (row n hn (j 0)) (j 1) := by
  funext j
  obtain ⟨p, q, rfl⟩ : ∃ (p : Fin 2048) (q : Fin 21), j = ix2 p q := ⟨j 0, j 1, eq_ix2 j⟩
  rw [scores_at]
  show _ = Cert.HeadScores.head X W B (row n hn p) q
  unfold Cert.HeadScores.head
  simp only [h0, h1, h2]

/-- THE TOTALS BLOCK IS A BLOCK OF THE TOTALS ARRAY, when moreover the fourth operand holds the same rows of the
    confidences `C`. -/
theorem totals_block (X : (⟨2, ![131072, 1024]⟩ : Shape).Idx → EReal) (C : (⟨2, ![131072, 21]⟩ : Shape).Idx → EReal)
    (W : (⟨2, ![21, 1024]⟩ : Shape).Idx → EReal) (B : (⟨1, ![21]⟩ : Shape).Idx → EReal)
    (x0 : Vec Ideal S2048x1024 .f32) (x1 : Vec Ideal S1024x21 .f32) (x2 : Vec Ideal S1x21 .f32) (x3 : Vec Ideal S2048x21 .f32)
    (n : ℕ) (hn : n < 64)
    (h0 : ∀ (p : Fin 2048) (k : Fin 1024), x0 (ix2 p k) = X (ix2 (row n hn p) k))
    (h1 : ∀ (k : Fin 1024) (q : Fin 21), x1 (ix2 k q) = W (ix2 q k))
    (h2 : ∀ q : Fin 21, x2 (ix2 (0 : Fin 1) q) = B (ix1 q))
    (h3 : ∀ (p : Fin 2048) (q : Fin 21), x3 (ix2 p q) = C (ix2 (row n hn p) q)) :
    k0_pay2 (F := Ideal) x0 x1 x2 x3 = fun j : S2048.Idx => Cert.HeadScores.total X C W B (row n hn (j 0)) := by
  funext j
  obtain ⟨p, rfl⟩ : ∃ p : Fin 2048, j = ix1 p := ⟨j 0, eq_ix1 j⟩
  rw [totals_at, scores_block X W B x0 x1 x2 n hn h0 h1 h2]
  show ∑ q : Fin 21, Cert.HeadScores.head X W B (row n hn p) q * x3 (ix2 p q) = Cert.HeadScores.total X C W B (row n hn p)
  unfold Cert.HeadScores.total
  exact Finset.sum_congr rfl fun q _ => by rw [h3]

end Cert.KernelIdeal.BlockScores

end
-- ==== Proof.EntryArrays.lean ====
/-
  The two arrays the host prepares before the kernel is launched.

  Before the launch the host transposes the weight matrix [21, 1024] to [1024, 21] and views the bias [21] as one
  row [1, 21]; the kernel's second and third windows stage these. Read at an entry, the transposed matrix at
  `(k, h)` is the weight `W[h, k]`, and the bias row at `(0, h)` is `b[h]`.
-/
import proofs.«172958_j6373731467824_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.EntryArrays

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

/-- When the kernel is launched, the second window's array is the weight matrix transposed. -/
theorem weights_t (c : Dev nD) :
    (V m c main_v0 : S1024x21.Idx → Elt F .f32)
      = transpose S1024x21 [1, 0] (m ((c : Thread nD τ).loc main_arg2) : S21x1024.Idx → Elt F .f32) transposes_S21x1024_S1024x21_1_0 := by
  dsimp only [Gen.V, Gen.hostOps0]
  after_results

/-- So at `(k, h)` it holds the weight of head `h` on feature `k`. -/
theorem weights_t_at (c : Dev nD) (k : Fin 1024) (h : Fin 21) :
    (V m c main_v0 : S1024x21.Idx → Elt F .f32) (ix2 k h)
      = (m ((c : Thread nD τ).loc main_arg2) : S21x1024.Idx → Elt F .f32) (ix2 h k) := by
  rw [weights_t]
  exact transpose_ix2_apply _ transposes_S21x1024_S1024x21_1_0 k h

/-- When the kernel is launched, the third window's array is the bias viewed as one row. -/
theorem bias_row (c : Dev nD) :
    (V m c main_v1 : S1x21.Idx → Elt F .f32)
      = shapeCast S1x21 (m ((c : Thread nD τ).loc main_arg3) : S21.Idx → Elt F .f32) shapeCasts_S21_S1x21 := by
  dsimp only [Gen.V, Gen.hostOps0]
  after_results
  rfl

/-- So at `(0, h)` it holds the bias of head `h`. -/
theorem bias_row_at (c : Dev nD) (h : Fin 21) :
    (V m c main_v1 : S1x21.Idx → Elt F .f32) (ix2 (0 : Fin 1) h)
      = (m ((c : Thread nD τ).loc main_arg3) : S21.Idx → Elt F .f32) (ix1 h) := by
  rw [bias_row]
  exact shapeCast_a_1a_apply _ shapeCasts_S21_S1x21 0 h

end Cert.KernelIdeal.EntryArrays

end
-- ==== Proof.KernelArrays.lean ====
/-
  From the blocks to the two result arrays of the kernel.

  The grid has 64 points; point `t` works on rows `2048 t … 2048 t + 2047`: its `x` and confidence blocks are those
  rows of the arguments, its weight and bias blocks are the whole transposed weight matrix and the whole bias row
  (block index zero on both axes at every point), and it writes back those rows of the scores and of the totals.
  By the body's reading (the block lemmas) what point `t` writes back is block `t` of the specification's arrays, and
  row `r` lies in the block of point `r / 2048`, so the 64 blocks cover both arrays: after the run the score array
  is `heads` and the totals array is `totals` of the arguments.
-/
import proofs.«172958_j6373731467824_2_alg».proof.Proof.Gen.KernelIdeal.Value
import proofs.«172958_j6373731467824_2_alg».proof.Proof.BlockScores
import proofs.«172958_j6373731467824_2_alg».proof.Proof.EntryArrays

noncomputable section

open scoped BigOperators

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.BlockScores (row)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- A grid point's number is below 64. -/
theorem point_lt (t : Fin cfg0.N) : t.val < 64 := lt_of_lt_of_eq t.isLt N_0

/-- The printed index maps, decided over the 64 points: the row-blocked windows (`x`, the confidences, both results)
    sit at block `t` of their first axis, the weights and the bias at block zero, every second axis at block zero. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 1) = t.val
    ∧ win0_5.index t (0 : Fin 2) = t.val ∧ win0_5.index t (1 : Fin 2) = 0 :=
  (by decide +kernel : ∀ t : Fin grid0.N, _)

/-! ## The input blocks as rows of the arguments -/

/-- Point `t`'s `x` block at `(p, k)` is `x` at row `2048 t + p`, feature `k`. -/
theorem x_block (c : Dev nD) (t : Fin cfg0.N) (p : Fin 2048) (k : Fin 1024) :
    (iblk m c 0 t : Vec Ideal S2048x1024 .f32) (ix2 p k)
      = (m ((c : Thread nD τ).loc main_arg0) : S131072x1024.Idx → EReal) (ix2 (row t.val (point_lt t) p) k) := by
  obtain ⟨e0, e1, -⟩ := block_index t
  unfold iblk
  rw [View.read_apply]
  show (V m c main_arg0 : S131072x1024.Idx → EReal) (((cfg0.win 0).blk t).view.emb (ix2 p k)) = _
  rw [V_main_arg0]
  refine congrArg (m ((c : Thread nD τ).loc main_arg0) : S131072x1024.Idx → EReal) (funext fun a => Fin.ext ?_)
  match a with
  | ⟨0, _⟩ => show win0_0.index t (0 : Fin 2) * 2048 + 1 * p.val = 2048 * t.val + p.val; omega
  | ⟨1, _⟩ => show win0_0.index t (1 : Fin 2) * 1024 + 1 * k.val = k.val; omega

/-- Point `t`'s confidence block at `(p, q)` is the confidence of row `2048 t + p` in head `q`. -/
theorem conf_block (c : Dev nD) (t : Fin cfg0.N) (p : Fin 2048) (q : Fin 21) :
    (iblk m c 3 t : Vec Ideal S2048x21 .f32) (ix2 p q)
      = (m ((c : Thread nD τ).loc main_arg1) : S131072x21.Idx → EReal) (ix2 (row t.val (point_lt t) p) q) := by
  obtain ⟨-, -, -, -, -, -, e0, e1, -⟩ := block_index t
  unfold iblk
  rw [View.read_apply]
  show (V m c main_arg1 : S131072x21.Idx → EReal) (((cfg0.win 3).blk t).view.emb (ix2 p q)) = _
  rw [V_main_arg1]
  refine congrArg (m ((c : Thread nD τ).loc main_arg1) : S131072x21.Idx → EReal) (funext fun a => Fin.ext ?_)
  match a with
  | ⟨0, _⟩ => show win0_3.index t (0 : Fin 2) * 2048 + 1 * p.val = 2048 * t.val + p.val; omega
  | ⟨1, _⟩ => show win0_3.index t (1 : Fin 2) * 21 + 1 * q.val = q.val; omega

/-- Every point's weight block is the whole transposed matrix: at `(k, q)` the weight of head `q` on feature `k`. -/
theorem weight_block (c : Dev nD) (t : Fin cfg0.N) (k : Fin 1024) (q : Fin 21) :
    (iblk m c 1 t : Vec Ideal S1024x21 .f32) (ix2 k q)
      = (m ((c : Thread nD τ).loc main_arg2) : S21x1024.Idx → EReal) (ix2 q k) := by
  obtain ⟨-, -, e0, e1, -⟩ := block_index t
  unfold iblk
  rw [View.read_apply]
  show (V m c main_v0 : S1024x21.Idx → EReal) (((cfg0.win 1).blk t).view.emb (ix2 k q)) = _
  have he : ((cfg0.win 1).blk t).view.emb (ix2 k q) = (ix2 k q : S1024x21.Idx) := funext fun a => Fin.ext (by
    match a with
    | ⟨0, _⟩ => show win0_1.index t (0 : Fin 2) * 1024 + 1 * k.val = k.val; omega
    | ⟨1, _⟩ => show win0_1.index t (1 : Fin 2) * 21 + 1 * q.val = q.val; omega)
  rw [he]
  exact Cert.KernelIdeal.EntryArrays.weights_t_at m c k q

/-- Every point's bias block is the whole bias row: at `(0, q)` the bias of head `q`. -/
theorem bias_block (c : Dev nD) (t : Fin cfg0.N) (q : Fin 21) :
    (iblk m c 2 t : Vec Ideal S1x21 .f32) (ix2 (0 : Fin 1) q)
      = (m ((c : Thread nD τ).loc main_arg3) : S21.Idx → EReal) (ix1 q) := by
  obtain ⟨-, -, -, -, e0, e1, -⟩ := block_index t
  unfold iblk
  rw [View.read_apply]
  show (V m c main_v1 : S1x21.Idx → EReal) (((cfg0.win 2).blk t).view.emb (ix2 (0 : Fin 1) q)) = _
  have he : ((cfg0.win 2).blk t).view.emb (ix2 (0 : Fin 1) q) = (ix2 (0 : Fin 1) q : S1x21.Idx) := funext fun a => Fin.ext (by
    match a with
    | ⟨0, _⟩ => show win0_2.index t (0 : Fin 2) * 1 + 1 * 0 = 0; omega
    | ⟨1, _⟩ => show win0_2.index t (1 : Fin 2) * 21 + 1 * q.val = q.val; omega)
  rw [he]
  exact Cert.KernelIdeal.EntryArrays.bias_row_at m c q

/-! ## What each point writes back -/

/-- Point `t` writes back block `t` of the score array `heads`. -/
theorem flushed_scores (c : Dev nD) (t : Fin cfg0.N) :
    (dats m 0 c).flushed 5 t = ((cfg0.win 5).blk t).view.read (Elt Ideal)
      (Cert.HeadScores.heads (m ((c : Thread nD τ).loc main_arg0)) (m ((c : Thread nD τ).loc main_arg2)) (m ((c : Thread nD τ).loc main_arg3))) := by
  obtain ⟨-, -, -, -, -, -, -, -, -, e0, e1⟩ := block_index t
  rw [Cert.KernelIdeal.Value.flushed5]
  unfold out0_5
  rw [View.canon_unit_zero zeros2]
  simp only [View.ld_unit_zero (S := S2048x1024) zeros2, View.ld_unit_zero (S := S1024x21) zeros2, View.ld_unit_zero (S := S1x21) zeros2]
  rw [Cert.KernelIdeal.BlockScores.scores_block (m ((c : Thread nD τ).loc main_arg0)) (m ((c : Thread nD τ).loc main_arg2))
    (m ((c : Thread nD τ).loc main_arg3)) (iblk m c 0 t) (iblk m c 1 t) (iblk m c 2 t) t.val (point_lt t)
    (x_block m c t) (weight_block m c t) (bias_block m c t)]
  funext j
  rw [View.read_apply]
  show Cert.HeadScores.head _ _ _ _ _ = Cert.HeadScores.head _ _ _ ((((cfg0.win 5).blk t).view.emb j) 0) ((((cfg0.win 5).blk t).view.emb j) 1)
  refine congrArg₂ (Cert.HeadScores.head _ _ _) (Fin.ext ?_) (Fin.ext ?_)
  · show 2048 * t.val + (j 0).val = win0_5.index t (0 : Fin 2) * 2048 + 1 * (j 0).val; omega
  · show (j 1).val = win0_5.index t (1 : Fin 2) * 21 + 1 * (j 1).val; omega

/-- Point `t` writes back block `t` of the totals array `totals`. -/
theorem flushed_totals (c : Dev nD) (t : Fin cfg0.N) :
    (dats m 0 c).flushed 4 t = ((cfg0.win 4).blk t).view.read (Elt Ideal)
      (Cert.HeadScores.totals (m ((c : Thread nD τ).loc main_arg0)) (m ((c : Thread nD τ).loc main_arg1))
        (m ((c : Thread nD τ).loc main_arg2)) (m ((c : Thread nD τ).loc main_arg3))) := by
  obtain ⟨-, -, -, -, -, -, -, -, e0, -⟩ := block_index t
  rw [Cert.KernelIdeal.Value.flushed4]
  unfold out0_4
  rw [View.canon_unit_zero zeros1]
  simp only [View.ld_unit_zero (S := S2048x1024) zeros2, View.ld_unit_zero (S := S1024x21) zeros2, View.ld_unit_zero (S := S1x21) zeros2,
    View.ld_unit_zero (S := S2048x21) zeros2]
  rw [Cert.KernelIdeal.BlockScores.totals_block (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t) t.val (point_lt t)
    (x_block m c t) (weight_block m c t) (bias_block m c t) (conf_block m c t)]
  funext j
  rw [View.read_apply]
  show Cert.HeadScores.total _ _ _ _ _ = Cert.HeadScores.total _ _ _ _ ((((cfg0.win 4).blk t).view.emb j) 0)
  refine congrArg (Cert.HeadScores.total _ _ _ _) (Fin.ext ?_)
  show 2048 * t.val + (j 0).val = win0_4.index t (0 : Fin 1) * 2048 + 1 * (j 0).val; omega

/-! ## The blocks cover the arrays -/

/-- An index of the score array is in point `t`'s block iff each coordinate is in the block's range on its axis. -/
theorem mem_scores_block (t : Fin cfg0.N) (i : S131072x21.Idx) :
    i ∈ ((cfg0.win 5).blk t).view.set ↔ ∀ a : Fin 2, win0_5.index t a * S2048x21.size a ≤ (i a).val
      ∧ (i a).val < win0_5.index t a * S2048x21.size a + S2048x21.size a := by
  show i ∈ ((View.whole main_v2_1).slice (win0_5.rect t)).set ↔ _
  rw [View.set_slice_whole, Rect.mem_set_unit]
  exact Iff.rfl

/-- The same for the totals array. -/
theorem mem_totals_block (t : Fin cfg0.N) (i : S131072.Idx) :
    i ∈ ((cfg0.win 4).blk t).view.set ↔ ∀ a : Fin 1, win0_4.index t a * S2048.size a ≤ (i a).val
      ∧ (i a).val < win0_4.index t a * S2048.size a + S2048.size a := by
  show i ∈ ((View.whole main_v2_0).slice (win0_4.rect t)).set ↔ _
  rw [View.set_slice_whole, Rect.mem_set_unit]
  exact Iff.rfl

/-- Row `r` of the score array is written by point `r / 2048`. -/
theorem scores_covered (i : S131072x21.Idx) :
    ∃ t : Fin cfg0.N, (cfg0.win 5).flush t = true ∧ i ∈ ((cfg0.win 5).blk t).view.set := by
  have hi0 : (i 0).val < 131072 := (i 0).isLt
  have hi1 : (i 1).val < 21 := (i 1).isLt
  have hN : grid0.N = 64 := N_0
  let t : Fin cfg0.N := ⟨(i 0).val / 2048, by show (i 0).val / 2048 < grid0.N; omega⟩
  obtain ⟨-, -, -, -, -, -, -, -, -, e0, e1⟩ := block_index t
  have ht : t.val = (i 0).val / 2048 := rfl
  refine ⟨t, flush0_5 t, ?_⟩
  rw [mem_scores_block]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 21 ≤ (i 1).val ∧ (i 1).val < win0_5.index t (1 : Fin 2) * 21 + 21
    omega

/-- Row `r` of the totals array is written by point `r / 2048`. -/
theorem totals_covered (i : S131072.Idx) :
    ∃ t : Fin cfg0.N, (cfg0.win 4).flush t = true ∧ i ∈ ((cfg0.win 4).blk t).view.set := by
  have hi0 : (i 0).val < 131072 := (i 0).isLt
  have hN : grid0.N = 64 := N_0
  let t : Fin cfg0.N := ⟨(i 0).val / 2048, by show (i 0).val / 2048 < grid0.N; omega⟩
  obtain ⟨-, -, -, -, -, -, -, -, e0, -⟩ := block_index t
  have ht : t.val = (i 0).val / 2048 := rfl
  refine ⟨t, flush0_4 t, ?_⟩
  rw [mem_totals_block]
  intro a
  match a with
  | ⟨0, _⟩ =>
    show win0_4.index t (0 : Fin 1) * 2048 ≤ (i 0).val ∧ (i 0).val < win0_4.index t (0 : Fin 1) * 2048 + 2048
    omega

/-! ## The arrays after the run -/

/-- After the run the score array is `heads` of the arguments. -/
theorem final_scores (c : Dev nD) : (dats m 0 c).arrAt 5 cfg0.N
    = Cert.HeadScores.heads (m ((c : Thread nD τ).loc main_arg0)) (m ((c : Thread nD τ).loc main_arg2)) (m ((c : Thread nD τ).loc main_arg3)) :=
  (dats m 0 c).arrAt_eq_of_cover 5 _ (fun t _ => flushed_scores m c t) scores_covered

/-- After the run the totals array is `totals` of the arguments. -/
theorem final_totals (c : Dev nD) : (dats m 0 c).arrAt 4 cfg0.N
    = Cert.HeadScores.totals (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_totals m c t) totals_covered

/-- The kernel's run: every weakly fair execution ends with the totals and the scores of the arguments in the two
    result arrays, the arguments unchanged. -/
theorem run : θ_run defs (onTc (τ := τ) (main (F := Ideal))) ⟨m, fun _ => 0, ρ⟩ fun r => ∀ c : Dev nD,
      r.2.mem ((c : Thread nD τ).loc main_v2_0) = Cert.HeadScores.totals (m ((c : Thread nD τ).loc main_arg0)) (m ((c : Thread nD τ).loc main_arg1))
        (m ((c : Thread nD τ).loc main_arg2)) (m ((c : Thread nD τ).loc main_arg3))
      ∧ r.2.mem ((c : Thread nD τ).loc main_v2_1) = Cert.HeadScores.heads (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_totals m c), (h c).2.1.trans (final_scores m c), (h c).2.2⟩)
    (Cert.KernelIdeal.Value.run_blocks m ρ)

end Cert.KernelIdeal.Arrays

end
-- ==== Proof.lean ====
/-
  The certificate: a blocked kernel that scores 131072 rows of 1024 features under 21 linear heads — one matrix product
  per block of 2048 rows against the transposed weight matrix, plus the bias — and weights each row's scores by the
  row's confidences and adds them over the heads, against the same computation written as one contraction, one
  broadcast add, one product and one sum on the host.

  Over the extended reals both programs compute, for every row `r` and head `h`,
      head r h = (∑ k, x[r, k] · W[h, k]) + b[h],      total r = ∑ h, head r h · v[r, h]
  (Proof/HeadScores.lean). The kernel contracts against `W` transposed by the host before the launch and the
  reference contracts along `W`'s own second axis: the same products `x[r, k] · W[h, k]`, summed over the same
  `k`. The kernel's accumulator and the reference's initial value are the zero word, the additive neutral. No
  distributivity or cancellation is used, so finiteness of the inputs is never called on.

  The three frames are the generated ones (the reference's is its generated run with the results dropped). The
  ideal pass rewrote nothing in the kernel, so the idealization claim is trivially true. For the algebraic claim: the
  reference's run ends at its operations' composed term, which is the specification (Proof/ReferenceHeads.lean, over the
  generated read-at-an-index lemmas); the kernel's run ends with both result arrays at the specification
  (Proof/KernelArrays.lean: what each grid point writes back is its block of the specification's arrays — the body's
  arithmetic at an entry is in Proof/BlockScores.lean, the host's transposed weights and bias row in
  Proof/EntryArrays.lean — and the 64 blocks cover the arrays).
-/
import proofs.«172958_j6373731467824_2_alg».proof.Defs
import proofs.«172958_j6373731467824_2_alg».proof.Proof.Gen.Kernel
import proofs.«172958_j6373731467824_2_alg».proof.Proof.Gen.Kernel.Frame
import proofs.«172958_j6373731467824_2_alg».proof.Proof.Gen.KernelIdeal
import proofs.«172958_j6373731467824_2_alg».proof.Proof.Gen.KernelIdeal.Frame
import proofs.«172958_j6373731467824_2_alg».proof.Proof.Gen.KernelIdeal.Value
import proofs.«172958_j6373731467824_2_alg».proof.Proof.Gen.ReferenceIdeal
import proofs.«172958_j6373731467824_2_alg».proof.Proof.Gen.ReferenceIdeal.Run
import proofs.«172958_j6373731467824_2_alg».proof.Proof.Gen.ReferenceIdeal.Read
import proofs.«172958_j6373731467824_2_alg».proof.Proof.Gen.Pre_finite_inputs
import proofs.«172958_j6373731467824_2_alg».proof.Proof.HeadScores
import proofs.«172958_j6373731467824_2_alg».proof.Proof.ReferenceHeads
import proofs.«172958_j6373731467824_2_alg».proof.Proof.KernelArrays
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories that agree on the four arguments, both programs end with the totals and the scores of those
    arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Arrays.run m ρ, ?_⟩
  refine (θ_run Cert.ReferenceIdeal.defs _ _).mono (fun _ h c => ?_) (Cert.ReferenceIdeal.Value.run (F := Ideal) m' ρ')
  obtain ⟨a0, a1, a2, a3⟩ := hagree c
  refine ⟨(h c).1.trans ?_, (h c).2.1.trans ?_, (h c).2.2⟩
  · rw [Cert.ReferenceIdeal.Read.val_main_v5_eq, Cert.ReferenceIdeal.Heads.totals_eq, a0, a1, a2, a3]
  · rw [Cert.ReferenceIdeal.Read.val_main_v3_eq, Cert.ReferenceIdeal.Heads.scores_eq, a0, a2, a3]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
